-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000 .f32) (main_arg2 : FVec F S64x64 .f32) (main_arg3 : FVec F S64 .f32) (main_arg4 : IVec S1600000 32) (main_arg5 : IVec S1600000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S50000x128 : Shape := ⟨2, ![50000, 128]⟩
abbrev S128x128 : Shape := ⟨2, ![128, 128]⟩
abbrev S1 : Shape := ⟨1, ![1]⟩
abbrev S2 : Shape := ⟨1, ![2]⟩
abbrev S128 : Shape := ⟨1, ![128]⟩
abbrev S1x128 : Shape := ⟨2, ![1, 128]⟩
abbrev S5000x128 : Shape := ⟨2, ![5000, 128]⟩

abbrev nBuf : Space → Nat
  | .hbm => 43
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S100000x64, .bf16⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .bf16⟩
  | .hbm, ⟨16, _⟩ => ⟨S1600000x64, .f32⟩
  | .hbm, ⟨17, _⟩ => ⟨S1600000x1, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S50000x128, .f32⟩
  | .hbm, ⟨25, _⟩ => ⟨S_, .f32⟩
  | .hbm, ⟨26, _⟩ => ⟨S128x128, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S128x128, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S128x128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000x64_S50000x128 : S100000x64.ShapeCasts S50000x128
  bcast_S_S128x128 : S_.BroadcastsInDim S128x128 (![] : Fin 0 → Fin S128x128.rank)
  bcast_S_S1 : S_.BroadcastsInDim S1 (![] : Fin 0 → Fin S1.rank)
  concatenates_S1_S1_S2_d0 : Shape.Concatenates [S1, S1] S2 0
  concatenates_S64_S64_S128_d0 : Shape.Concatenates [S64, S64] S128 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000x128_S100000x64 : S50000x128.ShapeCasts S100000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S128x128_S2_S64x64_01_n_01_0_wf : ScatterDims.WF S128x128 S2 S64x64 [0, 1] [] [0, 1] 0
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S128x128_S2_S64x64_01_n_01_0 : ScatterDims S128x128 S2 S64x64 where
  updateWindowDims := [0, 1]
  insertedWindowDims := []
  scatterDimsToOperandDims := [0, 1]
  indexVectorDim := 0
  wf := scatter_S128x128_S2_S64x64_01_n_01_0_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x1, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.KernelBody.lean ====
/-
  The kernel body's stored value at one entry, at the ideal values.

  The body rounds its 5000 × 128 block of packed rows and the 128 × 128 matrix to the narrow format (no change at the ideal
  values), multiplies them into a zero accumulator and adds the one-row bias spread over the rows: entry (r, q) of what it
  stores is the sum over k of block(r, k) · matrix(k, q), plus bias(0, q).
-/
import proofs.«105123_j56693568307362_2_alg».proof.Proof.Gen.KernelIdeal.Skeleton
import proofs.«105123_j56693568307362_2_alg».proof.Proof.LibDense
import Idealize.ShloMosaic.PureOps.Ideal
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- Entry (r, q) of the stored block: row r of the loaded block times column q of the loaded matrix, plus the bias at q. -/
theorem stored_apply (x0 : Vec Ideal S5000x128 .f32) (x1 : Vec Ideal S128x128 .f32) (x2 : Vec Ideal S1x128 .f32)
    (r : Fin 5000) (q : Fin 128) :
    k0_pay1 (F := Ideal) x0 x1 x2 (ix2 r q)
      = (∑ k : Fin 128, x0 (ix2 r k) * x1 (ix2 k q)) + x2 (ix2 (0 : Fin 1) q) := by
  unfold k0_pay1
  show (matmul dot_S5000x128_S128x128_S5000x128_1_0_0_1_n_n none
        (truncf .bf16 (shapeCast S5000x128 x0 shapeCasts_S5000x128_S5000x128) bitsLt_bf16_f32)
        (truncf .bf16 (shapeCast S128x128 x1 shapeCasts_S128x128_S128x128) bitsLt_bf16_f32)
        (constant (F := Ideal) S5000x128 .f32 0x00000000#32)) (ix2 r q)
      + (broadcastTo S5000x128 (shapeCast S1x128 x2 shapeCasts_S1x128_S1x128) broadcasts_S1x128_S5000x128) (ix2 r q) = _
  refine congrArg₂ (· + ·) ?_ ?_
  · refine (Cert.Dense.matmul_plain_apply dot_S5000x128_S128x128_S5000x128_1_0_0_1_n_n_wf _ _ r q).trans ?_
    refine Finset.sum_congr rfl fun k _ => ?_
    show shapeCast S5000x128 x0 shapeCasts_S5000x128_S5000x128 (ix2 r k)
      * shapeCast S128x128 x1 shapeCasts_S128x128_S128x128 (ix2 k q) = _
    rw [shapeCast_self, shapeCast_self]
  · refine (broadcastTo_1b_ab_apply _ broadcasts_S1x128_S5000x128 r q).trans ?_
    rw [shapeCast_self]

end Cert.KernelIdeal.Hand

end
-- ==== Proof.PackedLayer.lean ====
/-
  A dense layer computed on rows packed two to a lane row.

  Rows 2p and 2p+1 of a matrix T (100000 × 64) sit side by side in row p of the packed matrix t2 (50000 × 128): entry
  (p, k) of t2 and entry (r, c) of T are the same element when they have the same row-major position, r·64 + c = p·128 + k.
  Multiplying a packed row by the block-diagonal matrix Wd = diag(W, W) (128 × 128) and adding the doubled bias (b, b)
  gives, in columns 0 … 63, the product of row 2p with W plus b, and in columns 64 … 127 the product of row 2p+1 with W plus
  b.  In the contracted sum over the 128 coordinates the half that meets a zero block of Wd vanishes term by term
  (x · 0 = 0 for every extended real x, the infinities included), and the other half is the plain 64-term sum.  So the
  packed layer read at the row-major position of entry (n, j) is the plain layer's entry (n, j); no entry need be finite.
-/
import Mathlib.Data.EReal.Basic
import Idealize.ShloMosaic.Lib.ValueIdx
import proofs.«105123_j56693568307362_2_alg».proof.Proof.LibDense

noncomputable section

namespace Cert.PackedLayer

open Idealize.ShloMosaic Idealize.ShloMosaic.ValueIdx

/-! ## A 128-term sum one half of which vanishes -/

section Halves
variable {M : Type} [AddCommMonoid M]

/-- The last 64 terms vanish: the sum is the sum of the first 64. -/
theorem sum_first_half (f : Fin 128 → M) (g : Fin 64 → M)
    (h1 : ∀ k : Fin 64, f ⟨k.val, by have := k.isLt; omega⟩ = g k)
    (h2 : ∀ k : Fin 64, f ⟨64 + k.val, by have := k.isLt; omega⟩ = 0) : ∑ k, f k = ∑ k, g k := by
  rw [Cert.Dense.sum_split2 (p := 64) (q := 64) (r := 128) rfl f]
  have e1 : ∑ c : Fin 64, f ⟨c.val, by have := c.isLt; omega⟩ = ∑ k, g k := Finset.sum_congr rfl fun k _ => h1 k
  have e2 : ∑ c : Fin 64, f ⟨64 + c.val, by have := c.isLt; omega⟩ = 0 :=
    (Finset.sum_congr rfl fun k _ => h2 k).trans Finset.sum_const_zero
  rw [e1, e2, add_zero]

/-- The first 64 terms vanish: the sum is the sum of the last 64. -/
theorem sum_second_half (f : Fin 128 → M) (g : Fin 64 → M)
    (h1 : ∀ k : Fin 64, f ⟨k.val, by have := k.isLt; omega⟩ = 0)
    (h2 : ∀ k : Fin 64, f ⟨64 + k.val, by have := k.isLt; omega⟩ = g k) : ∑ k, f k = ∑ k, g k := by
  rw [Cert.Dense.sum_split2 (p := 64) (q := 64) (r := 128) rfl f]
  have e1 : ∑ c : Fin 64, f ⟨c.val, by have := c.isLt; omega⟩ = 0 :=
    (Finset.sum_congr rfl fun k _ => h1 k).trans Finset.sum_const_zero
  have e2 : ∑ c : Fin 64, f ⟨64 + c.val, by have := c.isLt; omega⟩ = ∑ k, g k := Finset.sum_congr rfl fun k _ => h2 k
  rw [e1, e2, zero_add]

end Halves

/-! ## The packed layer is the plain layer -/

/-- The plain layer at entry (n, j): row n of T times column j of W, plus b at j. -/
def plainAt (T : (⟨2, ![100000, 64]⟩ : Shape).Idx → EReal) (W : (⟨2, ![64, 64]⟩ : Shape).Idx → EReal)
    (b : (⟨1, ![64]⟩ : Shape).Idx → EReal) (n : Fin 100000) (j : Fin 64) : EReal :=
  (∑ k : Fin 64, T (ix2 n k) * W (ix2 k j)) + b (ix1 j)

/-- The packed layer at entry (p, c): packed row p times column c of the block-diagonal matrix, plus the doubled bias at c. -/
def packedAt (t2 : (⟨2, ![50000, 128]⟩ : Shape).Idx → EReal) (Wd : (⟨2, ![128, 128]⟩ : Shape).Idx → EReal)
    (b2 : (⟨2, ![1, 128]⟩ : Shape).Idx → EReal) (p : Fin 50000) (c : Fin 128) : EReal :=
  (∑ k : Fin 128, t2 (ix2 p k) * Wd (ix2 k c)) + b2 (ix2 (0 : Fin 1) c)

/-- The packed matrix holds T's elements in row-major order. -/
def Packs (T : (⟨2, ![100000, 64]⟩ : Shape).Idx → EReal) (t2 : (⟨2, ![50000, 128]⟩ : Shape).Idx → EReal) : Prop :=
  ∀ (p : Fin 50000) (k : Fin 128) (r : Fin 100000) (c : Fin 64), r.val * 64 + c.val = p.val * 128 + k.val →
    t2 (ix2 p k) = T (ix2 r c)

/-- Wd is W twice on the diagonal and zero off it. -/
structure BlockDiag (W : (⟨2, ![64, 64]⟩ : Shape).Idx → EReal) (Wd : (⟨2, ![128, 128]⟩ : Shape).Idx → EReal) : Prop where
  upperLeft : ∀ k c : Fin 64, Wd (ix2 ⟨k.val, by have := k.isLt; omega⟩ ⟨c.val, by have := c.isLt; omega⟩) = W (ix2 k c)
  upperRight : ∀ k c : Fin 64, Wd (ix2 ⟨k.val, by have := k.isLt; omega⟩ ⟨64 + c.val, by have := c.isLt; omega⟩) = 0
  lowerLeft : ∀ k c : Fin 64, Wd (ix2 ⟨64 + k.val, by have := k.isLt; omega⟩ ⟨c.val, by have := c.isLt; omega⟩) = 0
  lowerRight : ∀ k c : Fin 64,
    Wd (ix2 ⟨64 + k.val, by have := k.isLt; omega⟩ ⟨64 + c.val, by have := c.isLt; omega⟩) = W (ix2 k c)

/-- b2 is b twice in one row. -/
structure Doubled (b : (⟨1, ![64]⟩ : Shape).Idx → EReal) (b2 : (⟨2, ![1, 128]⟩ : Shape).Idx → EReal) : Prop where
  left : ∀ c : Fin 64, b2 (ix2 (0 : Fin 1) ⟨c.val, by have := c.isLt; omega⟩) = b (ix1 c)
  right : ∀ c : Fin 64, b2 (ix2 (0 : Fin 1) ⟨64 + c.val, by have := c.isLt; omega⟩) = b (ix1 c)

/-- The packed layer at the row-major position of (n, j) is the plain layer at (n, j). -/
theorem packedAt_eq_plainAt {T : (⟨2, ![100000, 64]⟩ : Shape).Idx → EReal} {W : (⟨2, ![64, 64]⟩ : Shape).Idx → EReal}
    {b : (⟨1, ![64]⟩ : Shape).Idx → EReal} {t2 : (⟨2, ![50000, 128]⟩ : Shape).Idx → EReal}
    {Wd : (⟨2, ![128, 128]⟩ : Shape).Idx → EReal} {b2 : (⟨2, ![1, 128]⟩ : Shape).Idx → EReal}
    (ht : Packs T t2) (hW : BlockDiag W Wd) (hb : Doubled b b2)
    (n : Fin 100000) (j : Fin 64) (p : Fin 50000) (c : Fin 128) (hp : n.val * 64 + j.val = p.val * 128 + c.val) :
    packedAt t2 Wd b2 p c = plainAt T W b n j := by
  unfold packedAt plainAt
  have hj := j.isLt
  have hc := c.isLt
  by_cases hn : n.val % 2 = 0
  · -- an even row: the left half of the packed row, the upper-left block
    obtain rfl : c = ⟨j.val, Nat.lt_of_lt_of_le j.isLt (by decide)⟩ := Fin.ext (by show c.val = j.val; omega)
    rw [hb.left j]
    congr 1
    refine sum_first_half _ _ (fun k => ?_) (fun k => ?_)
    · have hk := k.isLt
      rw [ht p ⟨k.val, by omega⟩ n k (by show n.val * 64 + k.val = p.val * 128 + k.val; omega), hW.upperLeft k j]
    · rw [hW.lowerLeft k j, mul_zero]
  · -- an odd row: the right half of the packed row, the lower-right block
    obtain rfl : c = ⟨64 + j.val, Nat.add_lt_add_left j.isLt 64⟩ := Fin.ext (by show c.val = 64 + j.val; omega)
    rw [hb.right j]
    congr 1
    refine sum_second_half _ _ (fun k => ?_) (fun k => ?_)
    · rw [hW.upperRight k j, mul_zero]
    · have hk := k.isLt
      rw [ht p ⟨64 + k.val, by omega⟩ n k (by show n.val * 64 + k.val = p.val * 128 + (64 + k.val); omega),
        hW.lowerRight k j]

end Cert.PackedLayer

end
-- ==== Proof.KernelValue.lean ====
/-
  The kernel's result array after the region, as one function of the three arrays the region reads.

  Grid point t loads rows 5000·t … 5000·t + 4999 of the packed feature matrix, the whole block-diagonal matrix and the
  whole bias row, and writes back rows 5000·t … 5000·t + 4999 of the result: entry (p, q) of the result array is the packed
  layer at (p, q) — packed row p times column q of the matrix, plus the bias at q — whichever point wrote it, and the ten
  points' row blocks cover the 50000 rows.
-/
import proofs.«105123_j56693568307362_2_alg».proof.Proof.Gen.KernelIdeal.Frame
import proofs.«105123_j56693568307362_2_alg».proof.Proof.KernelBody
import proofs.«105123_j56693568307362_2_alg».proof.Proof.PackedLayer
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

theorem zero_offsets : (![0, 0] : Fin 2 → Nat) = fun _ => 0 := funext fun a => by fin_cases a <;> rfl

/-- The result array as a function of the packed features, the block-diagonal matrix and the bias row. -/
def packedOut (t2 : S50000x128.Idx → EReal) (Wd : S128x128.Idx → EReal) (b2 : S1x128.Idx → EReal) : S50000x128.Idx → EReal :=
  fun i => Cert.PackedLayer.packedAt t2 Wd b2 (i 0) (i 1)

theorem packedOut_apply (t2 : S50000x128.Idx → EReal) (Wd : S128x128.Idx → EReal) (b2 : S1x128.Idx → EReal)
    (p : Fin 50000) (q : Fin 128) : packedOut t2 Wd b2 (ix2 p q) = Cert.PackedLayer.packedAt t2 Wd b2 p q := rfl

/-- Where the windows' blocks sit at point t: the row block t of the features and of the result, the one block of the
    matrix and of the bias. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of an array in the first window's place is rows 5000·t … of the array. -/
theorem features_read (t : Fin cfg0.N) (A : (⟨S50000x128, .f32⟩ : BufTy).Contents (Elt Ideal)) (x : S5000x128.Idx)
    (k : S50000x128.Idx) (hk0 : (k 0).val = t.val * 5000 + (x 0).val) (hk1 : (k 1).val = (x 1).val) :
    (((cfg0.win 0).blk t).view.read (Elt Ideal) A : Vec Ideal S5000x128 .f32) x = A k := by
  obtain ⟨e00, e01, -⟩ := block_indices t
  rw [View.read_apply]
  show A _ = A _
  refine congrArg A ?_
  funext a
  apply Fin.ext
  match a with
  | ⟨0, _⟩ => show win0_0.index t (0 : Fin 2) * 5000 + 1 * (x 0).val = (k 0).val; rw [e00, hk0]; omega
  | ⟨1, _⟩ => show win0_0.index t (1 : Fin 2) * 128 + 1 * (x 1).val = (k 1).val; rw [e01, hk1]; omega

/-- Every point's block of an array in the second window's place is the whole array. -/
theorem matrix_read (t : Fin cfg0.N) (A : (⟨S128x128, .f32⟩ : BufTy).Contents (Elt Ideal)) (x : S128x128.Idx) :
    (((cfg0.win 1).blk t).view.read (Elt Ideal) A : Vec Ideal S128x128 .f32) x = A x := by
  obtain ⟨-, -, e10, e11, -⟩ := block_indices t
  rw [View.read_apply]
  show A _ = A _
  refine congrArg A ?_
  funext a
  apply Fin.ext
  match a with
  | ⟨0, _⟩ => show win0_1.index t (0 : Fin 2) * 128 + 1 * (x 0).val = (x 0).val; rw [e10]; omega
  | ⟨1, _⟩ => show win0_1.index t (1 : Fin 2) * 128 + 1 * (x 1).val = (x 1).val; rw [e11]; omega

/-- Every point's block of an array in the third window's place is the whole row. -/
theorem bias_read (t : Fin cfg0.N) (A : (⟨S1x128, .f32⟩ : BufTy).Contents (Elt Ideal)) (x : S1x128.Idx) :
    (((cfg0.win 2).blk t).view.read (Elt Ideal) A : Vec Ideal S1x128 .f32) x = A x := by
  obtain ⟨-, -, -, -, e20, e21, -⟩ := block_indices t
  rw [View.read_apply]
  show A _ = A _
  refine congrArg A ?_
  funext a
  apply Fin.ext
  match a with
  | ⟨0, _⟩ => show win0_2.index t (0 : Fin 2) * 1 + 1 * (x 0).val = (x 0).val; rw [e20]; omega
  | ⟨1, _⟩ => show win0_2.index t (1 : Fin 2) * 128 + 1 * (x 1).val = (x 1).val; rw [e21]; omega

/-- What the body stores at point t from the blocks of three arrays is the row block t of their packed layer. -/
theorem stored_block (t : Fin cfg0.N) (A0 : (⟨S50000x128, .f32⟩ : BufTy).Contents (Elt Ideal))
    (A1 : (⟨S128x128, .f32⟩ : BufTy).Contents (Elt Ideal)) (A2 : (⟨S1x128, .f32⟩ : BufTy).Contents (Elt Ideal)) :
    (k0_pay1 (F := Ideal) (((cfg0.win 0).blk t).view.read (Elt Ideal) A0) (((cfg0.win 1).blk t).view.read (Elt Ideal) A1)
        (((cfg0.win 2).blk t).view.read (Elt Ideal) A2) : S5000x128.Idx → EReal)
      = fun y => packedOut A0 A1 A2 (((cfg0.win 3).blk t).view.emb y) := by
  obtain ⟨-, -, -, -, -, -, e30, e31⟩ := block_indices t
  have hN : cfg0.N = 10 := N_0
  have ht : t.val < 10 := hN ▸ t.isLt
  funext y
  obtain ⟨r, q, rfl⟩ : ∃ (r : Fin 5000) (q : Fin 128), y = ix2 r q := ⟨y 0, y 1, eq_ix2 y⟩
  have hemb : ((cfg0.win 3).blk t).view.emb (ix2 r q) = ix2 (⟨t.val * 5000 + r.val, by have := r.isLt; omega⟩ : Fin 50000) q := by
    funext a
    apply Fin.ext
    match a with
    | ⟨0, _⟩ => show win0_3.index t (0 : Fin 2) * 5000 + 1 * r.val = t.val * 5000 + r.val; rw [e30]; omega
    | ⟨1, _⟩ => show win0_3.index t (1 : Fin 2) * 128 + 1 * q.val = q.val; rw [e31]; omega
  rw [hemb, packedOut_apply]
  refine (stored_apply _ _ _ r q).trans ?_
  unfold Cert.PackedLayer.packedAt
  refine congrArg₂ (· + ·) (Finset.sum_congr rfl fun k _ => ?_) (bias_read t A2 _)
  rw [features_read t A0 (ix2 r k) (ix2 (⟨t.val * 5000 + r.val, by have := r.isLt; omega⟩ : Fin 50000) k) rfl rfl,
    matrix_read t A1 (ix2 k q)]

/-- What point t writes back is its row block of the packed layer of the three arrays the region finds. -/
theorem flushed_eq (c : Dev nD) (t : Fin cfg0.N) :
    (dats m 0 c).flushed 3 t
      = ((cfg0.win 3).blk t).view.read (Elt Ideal)
          (packedOut (V m c (Pipeline.arrRef spec0 0)) (V m c (Pipeline.arrRef spec0 1)) (V m c (Pipeline.arrRef spec0 2))) := by
  show (cfg0.win 3).cut (grid0.coords t) ((dats m 0 c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  unfold iblk
  generalize V m c (Pipeline.arrRef spec0 0) = A0
  generalize V m c (Pipeline.arrRef spec0 1) = A1
  generalize V m c (Pipeline.arrRef spec0 2) = A2
  funext y
  rw [View.read_apply]
  refine eq_of_heq (HEq.trans (heq_of_eq ?_) (cast_heq _ _).symm)
  show k0_pay1 (F := Ideal) (((cfg0.win 0).blk t).view.read (Elt Ideal) A0) (((cfg0.win 1).blk t).view.read (Elt Ideal) A1)
      (((cfg0.win 2).blk t).view.read (Elt Ideal) A2) y = _
  exact congrFun (stored_block t A0 A1 A2) y

/-- An index of the result array is in point t's block iff each coordinate is in the block's range. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v27).slice (win0_3.rect t)).set ↔ _
  rw [View.set_slice_whole, Rect.mem_set_unit]
  exact Iff.rfl

/-- Row p of the result is written by point p / 5000. -/
theorem covered (i : S50000x128.Idx) :
    ∃ t : Fin cfg0.N, (cfg0.win 3).flush t = true ∧ i ∈ ((cfg0.win 3).blk t).view.set := by
  have h0 : (i 0).val < 50000 := (i 0).isLt
  have h1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    rw [e30, ht]; omega
  | ⟨1, _⟩ =>
    show win0_3.index t (1 : Fin 2) * 128 ≤ (i 1).val ∧ (i 1).val < win0_3.index t (1 : Fin 2) * 128 + 128
    rw [e31]; omega

/-- The result array after the region is the packed layer of the three arrays the region reads. -/
theorem result_array (c : Dev nD) :
    (dats m 0 c).arrAt 3 cfg0.N
      = packedOut (V m c (Pipeline.arrRef spec0 0)) (V m c (Pipeline.arrRef spec0 1)) (V m c (Pipeline.arrRef spec0 2)) :=
  (dats m 0 c).arrAt_eq_of_cover 3 _ (fun t _ => flushed_eq m c t) covered

end Cert.KernelIdeal.Hand

end
-- ==== Proof.KernelArrays.lean ====
/-
  What the kernel's region finds in its three input arrays: the host operations before the region, read back.

  The first window's array is the aggregated feature matrix — every edge's source row, rounded to the narrow format and
  widened again, scaled by the edge's weight and added into the edge's destination row — re-laid in row-major order as
  50000 rows of 128; the second is the zero matrix with the weight matrix written at (0, 0) and again at (64, 64); the
  third is the bias joined to itself and laid out as one row.
-/
import proofs.«105123_j56693568307362_2_alg».proof.Proof.Gen.KernelIdeal.Frame
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The aggregated features: for every edge the source row (negative source indices counted from the end), through the
    narrow format and back, times the edge weight, added into the destination row of a zero matrix. -/
def aggregated (X : FVec F S100000x64 .f32) (vals : FVec F S1600000 .f32) (row col : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf
      (extf .f32
        (Host.gather gather_S100000x64_S1600000x1_S1600000x64_1_0_n_n_0_1_164
          (truncf .bf16 X bitsLt_bf16_f32)
          (broadcastInDim S1600000x1 ![0] bcast_S1600000_S1600000x1_0
            (select
              (cmpi .slt col (broadcastInDim S1600000 ![] bcast_S_S1600000 (constantI S_ 32 0#32)))
              (addi col (broadcastInDim S1600000 ![] bcast_S_S1600000 (constantI S_ 32 100000#32)))
              col)))
        bitsLt_bf16_f32)
      (broadcastInDim S1600000x64 ![0, 1] bcast_S1600000x1_S1600000x64_0_1
        (broadcastInDim S1600000x1 ![0] bcast_S1600000_S1600000x1_0 vals)))

/-- The start index (v, v) of a block write, as the two-word vector the host builds. -/
def startIndex (v : BitVec 32) : IVec S2 32 :=
  concatenate S2 0
    [⟨S1, broadcastInDim S1 ![] bcast_S_S1 (constantI S_ 32 v)⟩, ⟨S1, broadcastInDim S1 ![] bcast_S_S1 (constantI S_ 32 v)⟩]
    concatenates_S1_S1_S2_d0

/-- The weight matrix written into the zero matrix at (0, 0), then again at (64, 64). -/
def blockDiagonal (W : FVec F S64x64 .f32) : FVec F S128x128 .f32 :=
  Host.scatter scatter_S128x128_S2_S64x64_01_n_01_0 (fun _ b => b)
    (Host.scatter scatter_S128x128_S2_S64x64_01_n_01_0 (fun _ b => b)
      (broadcastInDim S128x128 ![] bcast_S_S128x128 (constant S_ .f32 0x00000000#32))
      (startIndex 0#32) W)
    (startIndex 64#32) W

/-- The bias joined to itself. -/
def doubledBias (b : FVec F S64 .f32) : FVec F S128 .f32 :=
  concatenate S128 0 [⟨S64, b⟩, ⟨S64, b⟩] concatenates_S64_S64_S128_d0

variable (m : (ℓ : Loc nD τ sig) → Buf (Elt F) ℓ)

set_option maxHeartbeats 4000000 in
/-- The first window's array: the aggregated features in row-major order, 128 to a row. -/
theorem V_packed (c : Dev nD) :
    V m c main_v15 = shapeCast S50000x128
      (aggregated (m ((c : Thread nD τ).loc main_arg0)) (m ((c : Thread nD τ).loc main_arg1))
        (m ((c : Thread nD τ).loc main_arg4)) (m ((c : Thread nD τ).loc main_arg5)))
      shapeCasts_S100000x64_S50000x128 := by
  show StableHlo.after hostOps0 (fun b => m (c, b)) (Proc.devRef .tc main_v15) = _
  after_results
  rfl

set_option maxHeartbeats 4000000 in
/-- The second window's array: the block-diagonal weight matrix. -/
theorem V_blockDiagonal (c : Dev nD) :
    V m c main_v24 = blockDiagonal (m ((c : Thread nD τ).loc main_arg2)) := by
  show StableHlo.after hostOps0 (fun b => m (c, b)) (Proc.devRef .tc main_v24) = _
  after_results
  rfl

set_option maxHeartbeats 4000000 in
/-- The third window's array: the doubled bias as one row. -/
theorem V_doubledBias (c : Dev nD) :
    V m c main_v26 = shapeCast S1x128 (doubledBias (m ((c : Thread nD τ).loc main_arg3))) shapeCasts_S128_S1x128 := by
  show StableHlo.after hostOps0 (fun b => m (c, b)) (Proc.devRef .tc main_v26) = _
  after_results
  rfl

end Cert.KernelIdeal.Hand

end
-- ==== Proof.KernelRun.lean ====
/-
  The kernel's run, read: its result as one function of the arguments.

  After the region the host re-lays the 50000 × 128 result array in row-major order as 100000 rows of 64.  With the region's
  result array the packed layer of the three arrays the host prepared — the aggregated features two rows to a packed row,
  the block-diagonal weight matrix, the doubled bias — the program's result is that packed layer re-laid.
-/
import proofs.«105123_j56693568307362_2_alg».proof.Proof.KernelValue
import proofs.«105123_j56693568307362_2_alg».proof.Proof.KernelArrays
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen

/-- The program's result as a function of its arguments: the packed layer of the prepared arrays, re-laid as 100000 × 64. -/
def result (X : FVec Ideal S100000x64 .f32) (vals : FVec Ideal S1600000 .f32) (W : FVec Ideal S64x64 .f32)
    (b : FVec Ideal S64 .f32) (row col : IVec S1600000 32) : S100000x64.Idx → EReal :=
  shapeCast S100000x64
    (packedOut (shapeCast S50000x128 (aggregated X vals row col) shapeCasts_S100000x64_S50000x128) (blockDiagonal W)
      (shapeCast S1x128 (doubledBias b) shapeCasts_S128_S1x128))
    shapeCasts_S50000x128_S100000x64

variable (m : (ℓ : Loc nD τ sig) → Buf (Elt Ideal) ℓ) (ρ : Dev nD → PrngReg)

/-- The region's result array, in the arguments. -/
theorem region_result (c : Dev nD) :
    Pipeline.withArrays (cfgs 0).spec c (V0 m c) (fun w => (dats m 0 c).arrAt w (cfgs 0).N) (Proc.devRef .tc main_v27)
      = packedOut (shapeCast S50000x128
            (aggregated (F := Ideal) (m ((c : Thread nD τ).loc main_arg0)) (m ((c : Thread nD τ).loc main_arg1))
              (m ((c : Thread nD τ).loc main_arg4)) (m ((c : Thread nD τ).loc main_arg5)))
            shapeCasts_S100000x64_S50000x128)
          (blockDiagonal (F := Ideal) (m ((c : Thread nD τ).loc main_arg2)))
          (shapeCast S1x128 (doubledBias (F := Ideal) (m ((c : Thread nD τ).loc main_arg3))) shapeCasts_S128_S1x128) := by
  refine (Pipeline.withArrays_arr spec0 launch0.win.arr_inj c _ _ 3).trans ?_
  refine (result_array m c).trans ?_
  have e0 : V m c (Pipeline.arrRef spec0 0) = _ := V_packed m c
  have e1 : V m c (Pipeline.arrRef spec0 1) = _ := V_blockDiagonal m c
  have e2 : V m c (Pipeline.arrRef spec0 2) = _ := V_doubledBias m c
  rw [e0, e1, e2]

set_option maxHeartbeats 1000000 in
/-- What the host line after the region leaves in the program's result buffer. -/
theorem tail_result (c : Dev nD) :
    Pipeline.afterTail₀ cfgs (dats m) 0 (V0 m) [hostOps1] c main_v28
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v28) = _
  after_results
  show shapeCast S100000x64
      (Pipeline.withArrays (cfgs 0).spec c (V0 m c) (fun w => (dats m 0 c).arrAt w (cfgs 0).N) (Proc.devRef .tc main_v27))
      shapeCasts_S50000x128_S100000x64 = _
  rw [region_result m c]
  rfl

/-- The run, read: the result buffer at `result` of the arguments, the arguments unchanged. -/
theorem run : θ_run defs (onTc (τ := τ) (main (F := Ideal))) ⟨m, fun _ => 0, ρ⟩ fun r => ∀ c : Dev nD,
      r.2.mem ((c.tc : Thread nD τ).loc main_v28)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v28 (Pipeline.mem_restRefs_of main_v28 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Hand

end
-- ==== Proof.LibScatterWords.lean ====
/-
  General lemmas for integer index arithmetic feeding an accumulating scatter, read at the exact instance.

  * 32-bit words that are known non-negative: the signed quotient and remainder by a positive word are the unsigned ones
    (`divsi_pos`, `remsi_pos`), the signed comparisons against zero (`cmpi_slt_zero`, `cmpi_sgt_zero`), and the signed
    value is the unsigned one (`toInt_of_msb_false`).
  * jnp's integer helpers one word at a time — floor division `fdivW`, remainder `remW`, and numpy's negative-index
    normalisation `normW` — and that on a non-negative dividend (and a positive divisor) they are the plain quotient, the
    plain remainder, and the identity (`fdivW_eq`, `remW_128`, `normW_eq`).
  * Where an update of a scatter lands: `d.resultIdx? j idx = some i` exactly when start + window is `i`'s coordinate on
    every operand axis (`resultIdx?_eq_some_iff`), for any dimension numbers.
  * The accumulating scatter at the exact instance, at an element: the operand's element plus the sum of the updates landing
    on it (`hostScatterAdd_eq`), and `Host.scatterAdd` at the exact instance as that function (`scatterAdd_ideal`). Use these two
    by `rw`, and never let a definitional check (`rfl`, `show`, `exact`, `simp`) unfold the scatter on a large index type: the
    normal form of a sum of extended reals over a finite type enumerates the type.
-/
import Idealize.ShloMosaic.PureOps
import Idealize.ShloMosaic.PureOps.Ideal
import Idealize.ShloMosaic.Lib.ValueIdx
noncomputable section
namespace Cert.Lib.Scatter
open Idealize.ShloMosaic

/-! ## Non-negative 32-bit words -/

theorem msb_false_of_lt {x : BitVec 32} {n : Nat} (h : x.toNat < n) (hn : n ≤ 2147483648) : x.msb = false := by
  rw [BitVec.msb_eq_false_iff_two_mul_lt]; omega

theorem toInt_of_msb_false {x : BitVec 32} (h : x.msb = false) : x.toInt = (x.toNat : Int) := by
  rw [BitVec.toInt_eq_msb_cond, h]; simp

theorem not_corner (x k : BitVec 32) (h0 : k ≠ 0) (h1 : k ≠ -1) : ¬ IntOp.SDivCorner x k := by
  rintro (h | ⟨_, h⟩)
  · exact h0 h
  · exact h1 h

theorem divsi_pos (u : ArithUnit) (x k : BitVec 32) (hx : x.msb = false) (hk : k.msb = false) (h0 : k ≠ 0) (h1 : k ≠ -1) :
    IntOp.divsi u x k = x / k := by
  unfold IntOp.divsi
  rw [if_neg (not_corner x k h0 h1), BitVec.sdiv_eq, hx, hk]
  rfl

theorem remsi_pos (u : ArithUnit) (x k : BitVec 32) (hx : x.msb = false) (hk : k.msb = false) (h0 : k ≠ 0) (h1 : k ≠ -1) :
    IntOp.remsi u x k = x % k := by
  unfold IntOp.remsi
  rw [if_neg (not_corner x k h0 h1), BitVec.srem_eq, hx, hk]

theorem cmpi_slt_zero (x : BitVec 32) (hx : x.msb = false) : IntOp.cmpi .slt x 0#32 = 0#1 := by
  unfold IntOp.cmpi
  simp only [BitVec.slt, toInt_of_msb_false hx]
  have h : ¬ ((x.toNat : Int) < 0) := by omega
  simp [h]

theorem cmpi_sgt_zero (x : BitVec 32) (hx : x.msb = false) (h0 : x ≠ 0) : IntOp.cmpi .sgt x 0#32 = 1#1 := by
  unfold IntOp.cmpi
  simp only [BitVec.slt, toInt_of_msb_false hx]
  have : 0 < x.toNat := by
    rcases Nat.eq_zero_or_pos x.toNat with h | h
    · exact absurd (BitVec.eq_of_toNat_eq (by simpa using h)) h0
    · exact h
  simp [this]

theorem andi_zero_left (y : BitVec 1) : IntOp.andi 0#1 y = 0#1 := by unfold IntOp.andi; simp

theorem toNat_ofNat_small (n : Nat) (hn : n < 2147483648) : (BitVec.ofNat 32 n).toNat = n := by
  rw [BitVec.toNat_ofNat]; exact Nat.mod_eq_of_lt (by omega)

/-- A word that is signed-at-least 0 and signed-below 2097152 is below 2097152 unsigned. -/
theorem toNat_lt_of_sge_slt (x : BitVec 32) (h1 : IntOp.cmpi .sge x 0#32 = 1#1) (h2 : IntOp.cmpi .slt x 2097152#32 = 1#1) :
    x.toNat < 2097152 := by
  unfold IntOp.cmpi at h1 h2
  simp only [BitVec.sle, BitVec.slt] at h1 h2
  have e0 : (0#32).toInt = 0 := by decide
  have e1 : (2097152#32).toInt = 2097152 := by decide
  rw [e0] at h1
  rw [e1] at h2
  have g1 : (0 : Int) ≤ x.toInt := by
    by_contra hc
    rw [decide_eq_false hc] at h1
    exact absurd h1 (by decide)
  have g2 : x.toInt < 2097152 := by
    by_contra hc
    rw [decide_eq_false hc] at h2
    exact absurd h2 (by decide)
  have := BitVec.toInt_eq_toNat_cond x
  split at this <;> omega

/-! ## jnp's integer helpers, one word at a time -/

/-- jnp's floor division, one word by one word. -/
def fdivW (x k : BitVec 32) : BitVec 32 :=
  let v2 := IntOp.divsi .host x k
  let v3 : BitVec 32 := if x = 0 then 0 else if x.msb then -1 else 1
  let v4 : BitVec 32 := if k = 0 then 0 else if k.msb then -1 else 1
  let v6 := IntOp.cmpi .ne v3 v4
  let v8 := IntOp.remsi .host x k
  let v10 := IntOp.cmpi .ne v8 0#32
  let v11 := IntOp.andi v6 v10
  let v13 := IntOp.subi v2 1#32
  Scalar.select v11 v13 v2

/-- jnp's remainder, one word by one word. -/
def remW (x k : BitVec 32) : BitVec 32 :=
  let v1 := IntOp.cmpi .eq k 0#32
  let v2 := Scalar.select v1 1#32 k
  let v4 := IntOp.remsi .host x v2
  let v6 := IntOp.cmpi .ne v4 0#32
  let v8 := IntOp.cmpi .slt v4 0#32
  let v9 := IntOp.cmpi .slt v2 0#32
  let v11 := IntOp.cmpi .ne v8 v9
  let v12 := IntOp.andi v11 v6
  let v14 := IntOp.addi v4 v2
  Scalar.select v12 v14 v4

/-- numpy's negative-index normalisation, one word. -/
def normW (v n : BitVec 32) : BitVec 32 := Scalar.select (IntOp.cmpi .slt v 0#32) (IntOp.addi v n) v

theorem fdivW_eq (x k : BitVec 32) (hx : x.msb = false) (hk : k.msb = false) (h0 : k ≠ 0) (h1 : k ≠ -1) :
    fdivW x k = x / k := by
  unfold fdivW
  simp only [divsi_pos .host x k hx hk h0 h1, remsi_pos .host x k hx hk h0 h1, hx, hk, if_neg h0]
  by_cases hx0 : x = 0
  · subst hx0
    have hz : ((0 : BitVec 32) % k) = 0 := by simp
    have e : IntOp.andi (IntOp.cmpi CmpIPredicate.ne (0 : BitVec 32) 1) (IntOp.cmpi CmpIPredicate.ne (0 : BitVec 32) 0#32) = 0#1 := by decide
    simp only [hz, eq_self_iff_true, if_true, Bool.false_eq_true, if_false, e, ValueIdx.select_zero]
  · simp only [if_neg hx0]
    have e : IntOp.cmpi CmpIPredicate.ne (1 : BitVec 32) (1 : BitVec 32) = 0#1 := by decide
    simp only [Bool.false_eq_true, if_false, e, andi_zero_left, ValueIdx.select_zero]

theorem normW_eq (v n : BitVec 32) (hv : v.msb = false) : normW v n = v := by
  unfold normW
  rw [cmpi_slt_zero v hv, ValueIdx.select_zero]

theorem remW_128 (x : BitVec 32) (hx : x.msb = false) : remW x 128#32 = x % 128#32 := by
  unfold remW
  have e1 : IntOp.cmpi CmpIPredicate.eq 128#32 0#32 = 0#1 := by decide
  simp only [e1, ValueIdx.select_zero, remsi_pos .host x 128#32 hx (by decide) (by decide) (by decide)]
  have hm : (x % 128#32).msb = false := by
    apply msb_false_of_lt (n := 128) _ (by decide)
    rw [BitVec.toNat_umod]; exact Nat.mod_lt _ (by decide)
  have e2 : IntOp.cmpi CmpIPredicate.slt 128#32 0#32 = 0#1 := by decide
  have e3 : IntOp.cmpi CmpIPredicate.ne 0#1 0#1 = 0#1 := by decide
  rw [cmpi_slt_zero _ hm, e2, e3, andi_zero_left, ValueIdx.select_zero]

/-! ## Where an update lands, and the exact accumulating scatter -/

theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      have := Option.some.inj h
      intro a
      have h2 := congrFun this a
      have := hb a
      have h3 := congrArg Fin.val h2
      simp only at h3
      omega
    · cases h
  · intro h
    have hb : ∀ a, 0 ≤ d.start j idx a + d.window j a ∧ d.start j idx a + d.window j a < s.size a := by
      intro a; rw [h a]; have := (i a).isLt; omega
    rw [dif_pos hb]
    congr 1
    funext a
    apply Fin.ext
    simp only
    rw [h a]; simp

/-- An accumulating scatter at an element: the operand's element plus the sum of the updates landing on it. -/
theorem hostScatterAdd_eq {s si su : Shape} (d : ScatterDims s si su) {w : Nat} (x : s.Idx → EReal) (idx : IVec si w)
    (upd : su.Idx → EReal) (i : s.Idx) :
    Ideal.hostScatterAdd d x idx upd i = x i + ∑ j ∈ Finset.univ.filter (fun j => d.resultIdx? j idx = some i), upd j := rfl

/-- At the exact instance the host's accumulating scatter is the exact one (as functions of the index). -/
theorem scatterAdd_ideal {s si su : Shape} {φ : FTy} (d : ScatterDims s si su) {w : Nat} (x : FVec Ideal s φ) (idx : IVec si w)
    (upd : FVec Ideal su φ) : Host.scatterAdd (F := Ideal) d x idx upd = Ideal.hostScatterAdd d x idx upd := rfl

end Cert.Lib.Scatter
-- ==== Proof.LibBlockWrite.lean ====
/-
  A block written into a matrix, read at one entry.

  The host's non-accumulating scatter whose body returns the update (a `.at[r0:r0+a, c0:c0+b].set(u)` of an a×b block u into
  an A×B matrix x at one start index (r0, c0)) is a left fold over the update's entries in row-major order, each entry replacing
  the element it lands on. Read at an element:
  * an element on which no update entry lands keeps the operand's value (`scatter_set_untouched`);
  * an element on which the entries that land all carry one value holds that value (`scatter_set_landed`);
  and for the block-write dimension numbers (both update axes are window axes, nothing inserted, the start index read off a
  two-word vector) an update entry (p, q) lands on (r0 + p, c0 + q) (`blockStart`, `blockWindow`, `block_lands_iff`), so that
  the written matrix is the block inside the rectangle and the operand outside (`blockWrite_inside`, `blockWrite_outside`).
  Also: two one-word vectors joined into a two-word vector, read at its two entries (`pairWords_zero`, `pairWords_one`).
-/
import Idealize.ShloMosaic.PureOps
import Idealize.ShloMosaic.Lib.ValueIdx
import Idealize.ShloMosaic.Lib.Pipeline.Value
import proofs.«105123_j56693568307362_2_alg».proof.Proof.LibScatterWords

noncomputable section

namespace Cert.BlockWrite

open Idealize.ShloMosaic Idealize.ShloMosaic.ValueIdx

/-! ## The fold, at one element -/

section Fold
variable {s si u : Shape} {α : Type} {w : ℕ} (d : ScatterDims s si u) (idx : IVec si w) (upd : u.Idx → α)

/-- One step of the fold: the update entry at row-major position n replaces the element it lands on. -/
def step (r : s.Idx → α) (n : Fin u.numel) : s.Idx → α :=
  match d.resultIdx? (u.rowMajor.symm n) idx with
  | some i => fun i' => if i' = i then upd (u.rowMajor.symm n) else r i'
  | none => r

theorem scatter_eq_foldl (x : s.Idx → α) :
    Host.scatter d (fun _ b => b) x idx upd = (List.finRange u.numel).foldl (step d idx upd) x := rfl

/-- A step whose entry does not land on i leaves the value at i. -/
theorem step_of_ne (r : s.Idx → α) (n : Fin u.numel) (i : s.Idx)
    (h : d.resultIdx? (u.rowMajor.symm n) idx ≠ some i) : step d idx upd r n i = r i := by
  unfold step
  cases hres : d.resultIdx? (u.rowMajor.symm n) idx with
  | none => rfl
  | some i0 =>
    show (if i = i0 then upd (u.rowMajor.symm n) else r i) = r i
    rw [if_neg]
    intro e; subst e; exact h hres

/-- A step whose entry lands on i leaves the entry there. -/
theorem step_of_eq (r : s.Idx → α) (n : Fin u.numel) (i : s.Idx)
    (h : d.resultIdx? (u.rowMajor.symm n) idx = some i) : step d idx upd r n i = upd (u.rowMajor.symm n) := by
  unfold step
  rw [h]
  exact if_pos rfl

/-- Over a list none of whose entries lands on i, the value at i is kept. -/
theorem foldl_untouched (i : s.Idx) : ∀ (l : List (Fin u.numel)) (x : s.Idx → α),
    (∀ n ∈ l, d.resultIdx? (u.rowMajor.symm n) idx ≠ some i) → l.foldl (step d idx upd) x i = x i
  | [], _, _ => rfl
  | n :: l, x, h => by
    rw [List.foldl_cons, foldl_untouched i l _ (fun n' hn' => h n' (List.mem_cons_of_mem _ hn')),
      step_of_ne d idx upd x n i (h n (List.mem_cons_self ..))]

/-- Over a list some entry of which lands on i, all the landing entries carrying the value v, the value at i ends at v. -/
theorem foldl_landed (i : s.Idx) (v : α) : ∀ (l : List (Fin u.numel)) (x : s.Idx → α),
    (∃ n ∈ l, d.resultIdx? (u.rowMajor.symm n) idx = some i) →
    (∀ n ∈ l, d.resultIdx? (u.rowMajor.symm n) idx = some i → upd (u.rowMajor.symm n) = v) →
    l.foldl (step d idx upd) x i = v
  | [], _, h, _ => by obtain ⟨n, hn, _⟩ := h; cases hn
  | n :: l, x, h, hv => by
    rw [List.foldl_cons]
    by_cases hl : ∃ n' ∈ l, d.resultIdx? (u.rowMajor.symm n') idx = some i
    · exact foldl_landed i v l _ hl (fun n' hn' => hv n' (List.mem_cons_of_mem _ hn'))
    · have hl' : ∀ n' ∈ l, d.resultIdx? (u.rowMajor.symm n') idx ≠ some i := fun n' hn' e => hl ⟨n', hn', e⟩
      rw [foldl_untouched d idx upd i l _ hl']
      obtain ⟨n0, hn0, e0⟩ := h
      have : n0 = n := by
        rcases List.mem_cons.mp hn0 with e | hm
        · exact e
        · exact absurd e0 (hl' n0 hm)
      subst this
      rw [step_of_eq d idx upd x n0 i e0]
      exact hv n0 (List.mem_cons_self ..) e0

/-- An element on which no update entry lands keeps the operand's value. -/
theorem scatter_set_untouched (x : s.Idx → α) (i : s.Idx) (h : ∀ j, d.resultIdx? j idx ≠ some i) :
    Host.scatter d (fun _ b => b) x idx upd i = x i := by
  rw [scatter_eq_foldl]
  exact foldl_untouched d idx upd i _ x fun n _ => h _

/-- An element on which the update entry j₀ lands, and only entries with its value, holds that entry. -/
theorem scatter_set_landed (x : s.Idx → α) (i : s.Idx) (j₀ : u.Idx) (h₀ : d.resultIdx? j₀ idx = some i)
    (huniq : ∀ j, d.resultIdx? j idx = some i → upd j = upd j₀) :
    Host.scatter d (fun _ b => b) x idx upd i = upd j₀ := by
  rw [scatter_eq_foldl]
  refine foldl_landed d idx upd i (upd j₀) _ x ⟨u.rowMajor j₀, List.mem_finRange _, ?_⟩ (fun n _ hn => huniq _ hn)
  rw [Equiv.symm_apply_apply]; exact h₀

end Fold

/-! ## A block written at one start index -/

section Block
variable {A B a b : ℕ} (wf : ScatterDims.WF ⟨2, ![A, B]⟩ ⟨1, ![2]⟩ ⟨2, ![a, b]⟩ [0, 1] [] [0, 1] 0)
variable {α : Type} {w : ℕ}

/-- The dimension numbers of a block write: both update axes are window axes, no operand axis is inserted, and the start
    index is the two words of the index vector. -/
abbrev blockDims : ScatterDims ⟨2, ![A, B]⟩ ⟨1, ![2]⟩ ⟨2, ![a, b]⟩ := ⟨[0, 1], [], [0, 1], 0, wf⟩

theorem blockStart0 (j : (⟨2, ![a, b]⟩ : Shape).Idx) (idx : IVec ⟨1, ![2]⟩ w) :
    (blockDims wf).start j idx 0 = (idx (ix1 0)).toInt := by
  unfold ScatterDims.start
  rw [dif_pos (show (0 : Fin 2) ∈ [(0 : Fin 2), 1] from List.mem_cons_self ..)]
  congr 2
  funext e
  match e with
  | ⟨0, _⟩ => apply Fin.ext; simp [ScatterDims.siIdx]

theorem blockStart1 (j : (⟨2, ![a, b]⟩ : Shape).Idx) (idx : IVec ⟨1, ![2]⟩ w) :
    (blockDims wf).start j idx 1 = (idx (ix1 1)).toInt := by
  unfold ScatterDims.start
  rw [dif_pos (show (1 : Fin 2) ∈ [(0 : Fin 2), 1] from List.mem_cons_of_mem _ (List.mem_cons_self ..))]
  congr 2
  funext e
  match e with
  | ⟨0, _⟩ => apply Fin.ext; simp [ScatterDims.siIdx]

theorem blockWindow0 (j : (⟨2, ![a, b]⟩ : Shape).Idx) : (blockDims wf).window j 0 = (j 0).val := by
  unfold ScatterDims.window
  rw [dif_pos (show (0 : Fin 2) ∈ (blockDims wf).sKept from by simp [Shape.kept])]
  rfl

theorem blockWindow1 (j : (⟨2, ![a, b]⟩ : Shape).Idx) : (blockDims wf).window j 1 = (j 1).val := by
  unfold ScatterDims.window
  rw [dif_pos (show (1 : Fin 2) ∈ (blockDims wf).sKept from by simp [Shape.kept])]
  rfl

/-- Update entry j lands on (r, c) exactly when the start index plus j's coordinates is (r, c). -/
theorem block_lands_iff (j : (⟨2, ![a, b]⟩ : Shape).Idx) (idx : IVec ⟨1, ![2]⟩ w) (r : Fin A) (c : Fin B) :
    (blockDims wf).resultIdx? j idx = some (ix2 r c)
      ↔ (idx (ix1 0)).toInt + ((j 0).val : Int) = (r.val : Int) ∧ (idx (ix1 1)).toInt + ((j 1).val : Int) = (c.val : Int) := by
  rw [Cert.Lib.Scatter.resultIdx?_eq_some_iff]
  constructor
  · intro h
    have h0 := h 0
    have h1 := h 1
    rw [blockStart0, blockWindow0] at h0
    rw [blockStart1, blockWindow1] at h1
    exact ⟨h0, h1⟩
  · rintro ⟨h0, h1⟩ e
    match e with
    | ⟨0, _⟩ =>
      show (blockDims wf).start j idx 0 + (((blockDims wf).window j 0 : ℕ) : Int) = _
      rw [blockStart0, blockWindow0]; exact h0
    | ⟨1, _⟩ =>
      show (blockDims wf).start j idx 1 + (((blockDims wf).window j 1 : ℕ) : Int) = _
      rw [blockStart1, blockWindow1]; exact h1

/-- Inside the written rectangle the matrix holds the block: entry (r0 + p, c0 + q) is the block's (p, q). -/
theorem blockWrite_inside (x : (⟨2, ![A, B]⟩ : Shape).Idx → α) (idx : IVec ⟨1, ![2]⟩ w) (upd : (⟨2, ![a, b]⟩ : Shape).Idx → α)
    (r0 c0 : ℕ) (h0 : (idx (ix1 0)).toInt = (r0 : Int)) (h1 : (idx (ix1 1)).toInt = (c0 : Int))
    (p : Fin a) (q : Fin b) (r : Fin A) (c : Fin B) (hr : r.val = r0 + p.val) (hc : c.val = c0 + q.val) :
    Host.scatter (blockDims wf) (fun _ v => v) x idx upd (ix2 r c) = upd (ix2 p q) := by
  refine scatter_set_landed (blockDims wf) idx upd x (ix2 r c) (ix2 p q) ?_ ?_
  · rw [block_lands_iff, h0, h1, hr, hc]
    exact ⟨by push_cast; rfl, by push_cast; rfl⟩
  · intro j hj
    rw [block_lands_iff, h0, h1, hr, hc] at hj
    obtain ⟨e0, e1⟩ := hj
    have g0 : j 0 = p := Fin.ext (by omega)
    have g1 : j 1 = q := Fin.ext (by omega)
    have e : j = ix2 p q := by
      funext ax
      match ax with
      | ⟨0, _⟩ => exact g0
      | ⟨1, _⟩ => exact g1
    rw [e]

/-- Outside the written rectangle the matrix keeps the operand's entry. -/
theorem blockWrite_outside (x : (⟨2, ![A, B]⟩ : Shape).Idx → α) (idx : IVec ⟨1, ![2]⟩ w) (upd : (⟨2, ![a, b]⟩ : Shape).Idx → α)
    (r0 c0 : ℕ) (h0 : (idx (ix1 0)).toInt = (r0 : Int)) (h1 : (idx (ix1 1)).toInt = (c0 : Int))
    (r : Fin A) (c : Fin B) (hout : r.val < r0 ∨ r0 + a ≤ r.val ∨ c.val < c0 ∨ c0 + b ≤ c.val) :
    Host.scatter (blockDims wf) (fun _ v => v) x idx upd (ix2 r c) = x (ix2 r c) := by
  refine scatter_set_untouched (blockDims wf) idx upd x (ix2 r c) fun j hj => ?_
  rw [block_lands_iff, h0, h1] at hj
  obtain ⟨e0, e1⟩ := hj
  have := idx2_lt0 j
  have := idx2_lt1 j
  omega

end Block

/-! ## Two words joined into a start index -/

section Pair
variable {α : Type}

/-- Two one-entry vectors joined: the first entry is the first vector's. -/
theorem pairWords_zero (x₁ x₂ : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, x₁⟩, ⟨⟨1, ![1]⟩, x₂⟩] h (ix1 (0 : Fin 2)) = x₁ (ix1 0) :=
  concatenate_pair_apply_left 0 x₁ x₂ h _ rfl _ fun e => match e with
    | ⟨0, _⟩ => rfl

/-- Two one-entry vectors joined: the second entry is the second vector's. -/
theorem pairWords_one (x₁ x₂ : (⟨1, ![1]⟩ : Shape).Idx → α)
    (h : Shape.Concatenates [(⟨1, ![1]⟩ : Shape), ⟨1, ![1]⟩] ⟨1, ![2]⟩ 0) :
    concatenate ⟨1, ![2]⟩ 0 [⟨⟨1, ![1]⟩, x₁⟩, ⟨⟨1, ![1]⟩, x₂⟩] h (ix1 (1 : Fin 2)) = x₂ (ix1 0) :=
  concatenate_pair_apply_right 0 x₁ x₂ h _ rfl rfl _
    (fun e he => match e with
      | ⟨0, _⟩ => absurd rfl he)
    rfl

end Pair

end Cert.BlockWrite

end
-- ==== Proof.PackedFacts.lean ====
/-
  The three arrays the kernel's region reads are the packed form of the plain layer's operands.

  Read entry by entry at the ideal values: the first window's array holds the aggregated features in row-major order (two
  feature rows to a packed row); the second is the weight matrix on both diagonal blocks and zero on the other two (the
  second block write, at (64, 64), leaves the first, at (0, 0), untouched, and neither touches the off-diagonal blocks of
  the zero matrix); the third is the bias twice in one row.
-/
import proofs.«105123_j56693568307362_2_alg».proof.Proof.KernelArrays
import proofs.«105123_j56693568307362_2_alg».proof.Proof.LibBlockWrite
import proofs.«105123_j56693568307362_2_alg».proof.Proof.PackedLayer
import Idealize.ShloMosaic.PureOps.Ideal
import Idealize.ShloMosaic.PureOps.Ideal.Laws
import Idealize.ShloMosaic.Lib.ValueLayout

noncomputable section

namespace Cert.KernelIdeal.Hand

open Cert.KernelIdeal Cert.KernelIdeal.Gen Idealize.ShloMosaic Idealize.ShloMosaic.ValueIdx

/-- The packed matrix holds the feature matrix's elements in row-major order. -/
theorem packs (T : FVec Ideal S100000x64 .f32) :
    Cert.PackedLayer.Packs T (shapeCast S50000x128 T shapeCasts_S100000x64_S50000x128) := by
  intro p k r c h
  refine shapeCast_apply T shapeCasts_S100000x64_S50000x128 (ix2 p k) (ix2 r c) ?_
  rw [Shape.rowMajor_val_two, Shape.rowMajor_val_two]
  exact h

/-- The first word of the start index (v, v). -/
theorem startIndex_zero (v : BitVec 32) : startIndex v (ix1 (0 : Fin 2)) = v :=
  (Cert.BlockWrite.pairWords_zero _ _ concatenates_S1_S1_S2_d0).trans rfl

/-- The second word of the start index (v, v). -/
theorem startIndex_one (v : BitVec 32) : startIndex v (ix1 (1 : Fin 2)) = v :=
  (Cert.BlockWrite.pairWords_one _ _ concatenates_S1_S1_S2_d0).trans rfl

/-- An entry of the zero matrix. -/
theorem zeros_apply (i : S128x128.Idx) :
    broadcastInDim S128x128 ![] bcast_S_S128x128 (constant (F := Ideal) S_ .f32 0x00000000#32) i = 0 :=
  Ideal.ofBits_zero_f32

/-- The block-diagonal matrix, block by block. -/
theorem blockDiag (W : FVec Ideal S64x64 .f32) : Cert.PackedLayer.BlockDiag W (blockDiagonal W) where
  upperLeft k c := by
    have hk := k.isLt
    have hc := c.isLt
    unfold blockDiagonal
    refine (Cert.BlockWrite.blockWrite_outside scatter_S128x128_S2_S64x64_01_n_01_0_wf _ (startIndex 64#32) W 64 64
      (by rw [startIndex_zero]; decide) (by rw [startIndex_one]; decide) _ _ (Or.inl (by show k.val < 64; omega))).trans ?_
    exact Cert.BlockWrite.blockWrite_inside scatter_S128x128_S2_S64x64_01_n_01_0_wf _ (startIndex 0#32) W 0 0
      (by rw [startIndex_zero]; decide) (by rw [startIndex_one]; decide) k c _ _
      (by show k.val = 0 + k.val; omega) (by show c.val = 0 + c.val; omega)
  upperRight k c := by
    have hk := k.isLt
    have hc := c.isLt
    unfold blockDiagonal
    refine (Cert.BlockWrite.blockWrite_outside scatter_S128x128_S2_S64x64_01_n_01_0_wf _ (startIndex 64#32) W 64 64
      (by rw [startIndex_zero]; decide) (by rw [startIndex_one]; decide) _ _ (Or.inl (by show k.val < 64; omega))).trans ?_
    refine (Cert.BlockWrite.blockWrite_outside scatter_S128x128_S2_S64x64_01_n_01_0_wf _ (startIndex 0#32) W 0 0
      (by rw [startIndex_zero]; decide) (by rw [startIndex_one]; decide) _ _
      (Or.inr (Or.inr (Or.inr (by show 0 + 64 ≤ 64 + c.val; omega))))).trans ?_
    exact zeros_apply _
  lowerLeft k c := by
    have hk := k.isLt
    have hc := c.isLt
    unfold blockDiagonal
    refine (Cert.BlockWrite.blockWrite_outside scatter_S128x128_S2_S64x64_01_n_01_0_wf _ (startIndex 64#32) W 64 64
      (by rw [startIndex_zero]; decide) (by rw [startIndex_one]; decide) _ _
      (Or.inr (Or.inr (Or.inl (by show c.val < 64; omega))))).trans ?_
    refine (Cert.BlockWrite.blockWrite_outside scatter_S128x128_S2_S64x64_01_n_01_0_wf _ (startIndex 0#32) W 0 0
      (by rw [startIndex_zero]; decide) (by rw [startIndex_one]; decide) _ _
      (Or.inr (Or.inl (by show 0 + 64 ≤ 64 + k.val; omega)))).trans ?_
    exact zeros_apply _
  lowerRight k c := by
    unfold blockDiagonal
    exact Cert.BlockWrite.blockWrite_inside scatter_S128x128_S2_S64x64_01_n_01_0_wf _ (startIndex 64#32) W 64 64
      (by rw [startIndex_zero]; decide) (by rw [startIndex_one]; decide) k c _ _ rfl rfl

/-- The one-row bias is the bias twice. -/
theorem doubled (b : FVec Ideal S64 .f32) :
    Cert.PackedLayer.Doubled b (shapeCast S1x128 (doubledBias b) shapeCasts_S128_S1x128) where
  left c := by
    refine (shapeCast_a_1a_apply (doubledBias b) shapeCasts_S128_S1x128 0 _).trans ?_
    unfold doubledBias
    exact concatenate_pair_apply_left 0 b b concatenates_S64_S64_S128_d0 _ rfl (ix1 c) fun e => match e with
      | ⟨0, _⟩ => rfl
  right c := by
    refine (shapeCast_a_1a_apply (doubledBias b) shapeCasts_S128_S1x128 0 _).trans ?_
    unfold doubledBias
    exact concatenate_pair_apply_right 0 b b concatenates_S64_S64_S128_d0 _ rfl rfl (ix1 c)
      (fun e he => match e with
        | ⟨0, _⟩ => absurd rfl he)
      (Nat.add_comm _ _)

end Cert.KernelIdeal.Hand

end
-- ==== Proof.RefValue.lean ====
/-
  The reference's result, read at one entry at the ideal values.

  The reference aggregates the features — every edge's source row times the edge's weight, added into the edge's
  destination row — multiplies by the weight matrix and adds the bias spread over the rows: entry (n, j) of its result is
  the sum over k of aggregated(n, k) · W(k, j), plus b(j).
-/
import proofs.«105123_j56693568307362_2_alg».proof.Proof.Gen.ReferenceIdeal
import proofs.«105123_j56693568307362_2_alg».proof.Proof.LibDense
import proofs.«105123_j56693568307362_2_alg».proof.Proof.PackedLayer
import Idealize.ShloMosaic.PureOps.Ideal
import Idealize.ShloMosaic.Lib.ValueIdx

noncomputable section

namespace Cert.ReferenceIdeal.Hand

open Cert.ReferenceIdeal Cert.ReferenceIdeal.Gen Idealize.ShloMosaic Idealize.ShloMosaic.ValueIdx

variable {F : FTy → Type} [FloatOps F]

/-- The aggregated features: for every edge the source row (negative source indices counted from the end) times the edge
    weight, added into the destination row of a zero matrix. -/
def aggregated (X : FVec F S100000x64 .f32) (vals : FVec F S1600000 .f32) (row col : IVec S1600000 32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf
      (Host.gather gather_S100000x64_S1600000x1_S1600000x64_1_0_n_n_0_1_164 X
        (broadcastInDim S1600000x1 ![0] bcast_S1600000_S1600000x1_0
          (select
            (cmpi .slt col (broadcastInDim S1600000 ![] bcast_S_S1600000 (constantI S_ 32 0#32)))
            (addi col (broadcastInDim S1600000 ![] bcast_S_S1600000 (constantI S_ 32 100000#32)))
            col)))
      (broadcastInDim S1600000x64 ![0, 1] bcast_S1600000x1_S1600000x64_0_1
        (broadcastInDim S1600000x1 ![0] bcast_S1600000_S1600000x1_0 vals)))

/-- The layer on top of a feature matrix: times the weight matrix, plus the bias on every row. -/
def layer (T : FVec F S100000x64 .f32) (W : FVec F S64x64 .f32) (b : FVec F S64 .f32) : FVec F S100000x64 .f32 :=
  addf (Host.dotGeneral dot_S100000x64_S64x64_S100000x64_1_0_0_1_n_n none T W)
    (broadcastInDim S100000x64 ![0, 1] bcast_S1x64_S100000x64_0_1 (broadcastInDim S1x64 ![1] bcast_S64_S1x64_1 b))

/-- Entry (n, j) of the layer: row n of the features times column j of the weights, plus the bias at j. -/
theorem layer_apply (T : FVec Ideal S100000x64 .f32) (W : FVec Ideal S64x64 .f32) (b : FVec Ideal S64 .f32)
    (n : Fin 100000) (j : Fin 64) : layer T W b (ix2 n j) = Cert.PackedLayer.plainAt T W b n j := by
  unfold layer Cert.PackedLayer.plainAt
  show Host.dotGeneral dot_S100000x64_S64x64_S100000x64_1_0_0_1_n_n none T W (ix2 n j)
    + broadcastInDim S100000x64 ![0, 1] bcast_S1x64_S100000x64_0_1 (broadcastInDim S1x64 ![1] bcast_S64_S1x64_1 b) (ix2 n j) = _
  refine congrArg₂ (· + ·) (Cert.Dense.hostDot_plain_apply dot_S100000x64_S64x64_S100000x64_1_0_0_1_n_n_wf T W n j) ?_
  exact (Cert.Dense.bcastRows_apply _ bcast_S1x64_S100000x64_0_1 n j).trans
    (Cert.Dense.bcastRow_apply b bcast_S64_S1x64_1 0 j)

end Cert.ReferenceIdeal.Hand

end
-- ==== Proof.Bridge.lean ====
/-
  The two programs compute one function of the arguments.

  The kernel's aggregated features pass through the narrow format and back, which changes nothing at the ideal values: they
  are the reference's.  On top of them the kernel's result at entry (n, j) is the packed layer at packed row n / 2 and column
  64·(n mod 2) + j — the entry with the same row-major position — and the packed layer there is the plain layer's entry
  (n, j): the reference's.
-/
import proofs.«105123_j56693568307362_2_alg».proof.Proof.KernelRun
import proofs.«105123_j56693568307362_2_alg».proof.Proof.PackedFacts
import proofs.«105123_j56693568307362_2_alg».proof.Proof.RefValue

noncomputable section

namespace Cert.Bridge

open Idealize.ShloMosaic Idealize.ShloMosaic.ValueIdx

/-- Rounding the features to the narrow format before the gather and widening after it changes nothing at the ideal
    values: the kernel gathers the rows the reference gathers. -/
theorem gathered_eq (X : FVec Ideal Cert.KernelIdeal.S100000x64 .f32) (idx : IVec Cert.KernelIdeal.S1600000x1 32) :
    extf .f32 (Host.gather Cert.KernelIdeal.gather_S100000x64_S1600000x1_S1600000x64_1_0_n_n_0_1_164
        (truncf .bf16 X Cert.KernelIdeal.Facts₀.bitsLt_bf16_f32) idx) Cert.KernelIdeal.Facts₀.bitsLt_bf16_f32
      = Host.gather Cert.ReferenceIdeal.gather_S100000x64_S1600000x1_S1600000x64_1_0_n_n_0_1_164 X idx := by
  funext i
  rfl

/-- An accumulating scatter is one value on equal dimension numbers, operands, indices and updates. -/
theorem scatterAdd_congr {s si u : Shape} {φ : FTy} {w : ℕ} (d d' : ScatterDims s si u) (hd : d = d')
    (x x' : FVec Ideal s φ) (hx : x = x') (i i' : IVec si w) (hi : i = i') (v v' : FVec Ideal u φ) (hv : v = v') :
    Host.scatterAdd d x i v = Host.scatterAdd d' x' i' v' := by
  subst hd hx hi hv
  rfl

/-- The kernel's aggregated features are the reference's. -/
theorem aggregated_eq (X : FVec Ideal Cert.KernelIdeal.S100000x64 .f32) (vals : FVec Ideal Cert.KernelIdeal.S1600000 .f32)
    (row col : IVec Cert.KernelIdeal.S1600000 32) :
    Cert.KernelIdeal.Hand.aggregated X vals row col = Cert.ReferenceIdeal.Hand.aggregated X vals row col := by
  unfold Cert.KernelIdeal.Hand.aggregated Cert.ReferenceIdeal.Hand.aggregated
  rw [gathered_eq]
  exact scatterAdd_congr _ _ rfl _ _ rfl _ _ rfl _ _ rfl

/-- The kernel's result is the reference's layer on the reference's aggregated features. -/
theorem result_eq (X : FVec Ideal Cert.KernelIdeal.S100000x64 .f32) (vals : FVec Ideal Cert.KernelIdeal.S1600000 .f32)
    (W : FVec Ideal Cert.KernelIdeal.S64x64 .f32) (b : FVec Ideal Cert.KernelIdeal.S64 .f32)
    (row col : IVec Cert.KernelIdeal.S1600000 32) :
    Cert.KernelIdeal.Hand.result X vals W b row col
      = Cert.ReferenceIdeal.Hand.layer (Cert.ReferenceIdeal.Hand.aggregated X vals row col) W b := by
  unfold Cert.KernelIdeal.Hand.result
  rw [← aggregated_eq]
  generalize Cert.KernelIdeal.Hand.aggregated X vals row col = T
  funext i
  obtain ⟨n, j, rfl⟩ : ∃ (n : Fin 100000) (j : Fin 64), i = ix2 n j := ⟨i 0, i 1, eq_ix2 i⟩
  have hn := n.isLt
  have hj := j.isLt
  obtain ⟨p, hp⟩ : ∃ p : Fin 50000, p.val = n.val / 2 := ⟨⟨n.val / 2, by omega⟩, rfl⟩
  obtain ⟨q, hq⟩ : ∃ q : Fin 128, q.val = 64 * (n.val % 2) + j.val := ⟨⟨64 * (n.val % 2) + j.val, by omega⟩, rfl⟩
  have hpq : n.val * 64 + j.val = p.val * 128 + q.val := by omega
  rw [Cert.ReferenceIdeal.Hand.layer_apply T W b n j]
  refine (shapeCast_apply _ Cert.KernelIdeal.Facts₀.shapeCasts_S50000x128_S100000x64 (ix2 n j) (ix2 p q) ?_).trans ?_
  · rw [Shape.rowMajor_val_two, Shape.rowMajor_val_two]
    exact hpq.symm
  · rw [Cert.KernelIdeal.Hand.packedOut_apply]
    have h1 := Cert.KernelIdeal.Hand.packs T
    have h2 := Cert.KernelIdeal.Hand.blockDiag W
    have h3 := Cert.KernelIdeal.Hand.doubled b
    exact Cert.PackedLayer.packedAt_eq_plainAt h1 h2 h3 n j p q hpq

end Cert.Bridge

end
-- ==== Proof.lean ====
/-
  A graph-convolution layer: Z = (A · X) · W + b, the sparse product A · X given edge by edge (for every edge the source row
  of X times the edge's weight, added into the edge's destination row).

  The kernel's program aggregates the features on the host exactly as the reference does, except that the gathered rows
  pass through a narrower float format and back — no change at the ideal values.  Its dense stage then runs on rows PACKED
  two to a 128-wide row: the aggregated matrix re-laid as 50000 × 128, the weight matrix placed on both diagonal blocks of a
  128 × 128 zero matrix, the bias doubled; ten grid points each multiply a 5000-row block by the block-diagonal matrix and
  add the bias row; and the 50000 × 128 result is re-laid as 100000 × 64.  Entry (n, j) of the result is the packed layer at
  packed row n / 2 and column 64·(n mod 2) + j, a sum of 128 products, half of which meet a zero block of the matrix and
  vanish (x · 0 = 0 for every extended real), leaving the 64 products of row n of the aggregated features with column j of W:
  the reference's entry.  Nothing in the argument needs a finite value, so the precondition is never opened.

  The three frames are the generated ones (the reference's is its generated run with the result dropped); no operation was
  rewritten for the ideal reading, so the idealization conjunct is trivial.
-/
import proofs.«105123_j56693568307362_2_alg».proof.Defs
import proofs.«105123_j56693568307362_2_alg».proof.Proof.Gen.Kernel
import proofs.«105123_j56693568307362_2_alg».proof.Proof.Gen.Kernel.Skeleton
import proofs.«105123_j56693568307362_2_alg».proof.Proof.Gen.Kernel.Launch
import proofs.«105123_j56693568307362_2_alg».proof.Proof.Gen.Kernel.Points
import proofs.«105123_j56693568307362_2_alg».proof.Proof.Gen.Kernel.Frame
import proofs.«105123_j56693568307362_2_alg».proof.Proof.Gen.KernelIdeal
import proofs.«105123_j56693568307362_2_alg».proof.Proof.Gen.KernelIdeal.Skeleton
import proofs.«105123_j56693568307362_2_alg».proof.Proof.Gen.KernelIdeal.Launch
import proofs.«105123_j56693568307362_2_alg».proof.Proof.Gen.KernelIdeal.Points
import proofs.«105123_j56693568307362_2_alg».proof.Proof.Gen.KernelIdeal.Frame
import proofs.«105123_j56693568307362_2_alg».proof.Proof.Gen.ReferenceIdeal
import proofs.«105123_j56693568307362_2_alg».proof.Proof.Gen.ReferenceIdeal.Run
import proofs.«105123_j56693568307362_2_alg».proof.Proof.Gen.Pre_finite_inputs
import proofs.«105123_j56693568307362_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs end, from arguments that agree, at one result: the layer on the aggregated features. -/
theorem algebraic : Cert.algebraic_KernelIdeal_ReferenceIdeal := by
  intro m ρ m' ρ' _ hagree
  refine ⟨fun c => Cert.KernelIdeal.Hand.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.Bridge.result_eq
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
